-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S1x128 : Shape := ⟨2, ![1, 128]⟩
abbrev S4000x128 : Shape := ⟨2, ![4000, 128]⟩
abbrev S_ : Shape := ⟨0, ![]⟩
abbrev S640000x1 : Shape := ⟨2, ![640000, 1]⟩
abbrev S640000x128 : Shape := ⟨2, ![640000, 128]⟩

abbrev nBuf : Space → Nat
  | .hbm => 40
  | .vmem => 16
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S1x128, .f32⟩
  | .hbm, ⟨13, _⟩ => ⟨S40000x128, .f32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S40000x128, .f32⟩
  | .hbm, ⟨35, _⟩ => ⟨S640000x1, .i32⟩
  | .hbm, ⟨36, _⟩ => ⟨S40000x128, .f32⟩
  | .hbm, ⟨37, _⟩ => ⟨S1x128, .f32⟩
  | .hbm, ⟨38, _⟩ => ⟨S1x128, .f32⟩
  | .hbm, ⟨39, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S4000x128_S4000x128 : S4000x128.ShapeCasts S4000x128
  dot_S4000x128_S128x128_S4000x128_1_0_0_1_n_n_wf : DotDims.WF S4000x128 S128x128 S4000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S40000x128.size a
  hwx0_3 : ∀ i : grid0.Coords, EltTy.bits .f32 = 32 ∨ (Rect.block (s := S40000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S40000x128.size a
  hwx1_6 : ∀ i : grid1.Coords, EltTy.bits .f32 = 32 ∨ (Rect.block (s := S40000x128) S4000x128.size (cc1_transform_6 i) (hinb1_6 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S640000x128, .f32⟩
  | .hbm, ⟨22, _⟩ => ⟨S1x128, .f32⟩
  | .hbm, ⟨23, _⟩ => ⟨S640000x128, .f32⟩
  | .hbm, ⟨24, _⟩ => ⟨S640000x128, .f32⟩
  | .hbm, ⟨25, _⟩ => ⟨S640000x128, .f32⟩
  | .hbm, ⟨26, _⟩ => ⟨S640000x128, .f32⟩
  | .hbm, ⟨27, _⟩ => ⟨S_, .f32⟩
  | .hbm, ⟨28, _⟩ => ⟨S640000x128, .f32⟩
  | .hbm, ⟨29, _⟩ => ⟨S640000x128, .f32⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S40000x128, .f32⟩
  | .hbm, ⟨36, _⟩ => ⟨S640000x1, .i32⟩
  | .hbm, ⟨37, _⟩ => ⟨S40000x128, .f32⟩
  | .hbm, ⟨38, _⟩ => ⟨S40000x128, .f32⟩
  | .hbm, ⟨39, _⟩ => ⟨S1x128, .f32⟩
  | .hbm, ⟨40, _⟩ => ⟨S40000x128, .f32⟩
  | .hbm, ⟨41, _⟩ => ⟨S40000x128, .f32⟩
  | .hbm, ⟨42, _⟩ => ⟨S40000x128, .f32⟩
  | .hbm, ⟨43, _⟩ => ⟨S1x128, .f32⟩
  | .hbm, ⟨44, _⟩ => ⟨S40000x128, .f32⟩
  | .hbm, ⟨45, _⟩ => ⟨S40000x128, .f32⟩
  | .hbm, ⟨46, _⟩ => ⟨S40000x128, .f32⟩
  | .hbm, ⟨47, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S640000x128_S128x128_S640000x128_1_0_0_1_n_n_wf : DotDims.WF S640000x128 S128x128 S640000x128 [1] [0] [0] [1] [] []
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.KernelRun.lean ====
/-
  The idealized kernel's run with its result NAMED.

  @main is four segments: host operations, the gate's pallas_call, host operations (the gathers, the product and the
  scatter-add), the output's pallas_call. The segments' boundary contents are a fold from the launch memory, and after
  the last segment every buffer that outlives a region holds the last boundary's contents. The frame reads eight of
  those buffers, the arguments; here the ninth is read too: the result array ends at the last boundary's contents of
  its buffer, whatever they are. What they are is the business of the value modules.
-/
import proofs.«167293_j42399917146354_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents of its buffer and the argument arrays as launched. -/
theorem run_named : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.Spec.lean ====
/-
  What the graph layer computes, as functions of whole arrays at the extended reals.

  For a node matrix `X : [40000, 128]`, weights `W : [128, 128]` and a bias read entry by entry `b : Fin 128 → EReal`:
    * `affine xr W b j = (∑ k, xr k · W[k, j]) + b j` — one row `xr` times the matrix plus the bias, entry `j`;
    * `attn X W b` — the gate: entry `(n, j)` is the logistic function of `affine (row n of X) W b j`;
    * `combine X G Wn bn Wg bg` — the output: entry `(n, j)` is
      `tanh (affine (row n of X) Wn bn j + affine (row n of G) Wg bg j)`, `G` the aggregated messages.
  Every entry of `attn` and of `combine` depends on ONE row of each matrix argument, which is why a row gather passes
  through them, and why a tiling of the rows into blocks does not change them.
  Two scalar facts about the gate: the logistic function is, on every extended real, the quotient
  `1 / (1 + exp (-s))` it is defined by, and the word `0x3F800000` is the number one.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- One row times a `[128, 128]` matrix, plus a bias: entry `j`. -/
def affine (xr : Fin 128 → EReal) (W : FVec Ideal ⟨2, ![128, 128]⟩ .f32) (b : Fin 128 → EReal) (j : Fin 128) : EReal :=
  (∑ k : Fin 128, xr k * W (ix2 k j)) + b j

/-- The gate of a row: the logistic function of the row's affine image. -/
def gateRow (xr : Fin 128 → EReal) (W : FVec Ideal ⟨2, ![128, 128]⟩ .f32) (b : Fin 128 → EReal) (j : Fin 128) : EReal :=
  Ideal.logistic (affine xr W b j)

/-- The gate of every node. -/
def attn (X : FVec Ideal ⟨2, ![40000, 128]⟩ .f32) (W : FVec Ideal ⟨2, ![128, 128]⟩ .f32) (b : Fin 128 → EReal) :
    FVec Ideal ⟨2, ![40000, 128]⟩ .f32 :=
  fun i => gateRow (fun k => X (ix2 (i 0) k)) W b (i 1)

/-- The layer's output from the nodes `X` and the aggregated messages `G`. -/
def combine (X G : FVec Ideal ⟨2, ![40000, 128]⟩ .f32) (Wn : FVec Ideal ⟨2, ![128, 128]⟩ .f32) (bn : Fin 128 → EReal)
    (Wg : FVec Ideal ⟨2, ![128, 128]⟩ .f32) (bg : Fin 128 → EReal) : FVec Ideal ⟨2, ![40000, 128]⟩ .f32 :=
  fun i => Ideal.tanh (affine (fun k => X (ix2 (i 0) k)) Wn bn (i 1) + affine (fun k => G (ix2 (i 0) k)) Wg bg (i 1))

theorem attn_apply (X : FVec Ideal ⟨2, ![40000, 128]⟩ .f32) (W : FVec Ideal ⟨2, ![128, 128]⟩ .f32) (b : Fin 128 → EReal)
    (n : Fin 40000) (j : Fin 128) : attn X W b (ix2 n j) = gateRow (fun k => X (ix2 n k)) W b j := rfl

theorem combine_apply (X G : FVec Ideal ⟨2, ![40000, 128]⟩ .f32) (Wn : FVec Ideal ⟨2, ![128, 128]⟩ .f32)
    (bn : Fin 128 → EReal) (Wg : FVec Ideal ⟨2, ![128, 128]⟩ .f32) (bg : Fin 128 → EReal) (n : Fin 40000) (j : Fin 128) :
    combine X G Wn bn Wg bg (ix2 n j)
      = Ideal.tanh (affine (fun k => X (ix2 n k)) Wn bn j + affine (fun k => G (ix2 n k)) Wg bg j) := rfl

/-- The word of the float one is the number one. -/
theorem ofBits_one_f32 : Ideal.ofBits .f32 0x3F800000#32 = 1 := by
  simp [Ideal.ofBits, Ideal.ieee, -EReal.coe_mul]; norm_num

/-- The logistic function is the quotient it is defined by, on every extended real. -/
theorem logistic_eq (s : EReal) : Ideal.div 1 (1 + Ideal.exp (-s)) = Ideal.logistic s := rfl

end Cert.Spec

end
-- ==== Proof.Payload.lean ====
/-
  What each kernel body stores, read at an index, at the extended reals.

  Both bodies work on a block of 4000 node rows. The gate's body stores, at `(p, q)`, the logistic function of
  `(∑ k, x[p, k] · W[k, q]) + b[0, q]`: the matrix unit's product into a zero accumulator is the plain sum over the
  contracted axis, rounding the operands to bf16 first changes nothing at the extended reals, and the `[1, 128]` bias
  broadcast down the rows reads its entry `(0, q)`. The output's body stores `tanh` of the sum of two such affine
  images, one of the node block and one of the aggregated block. So each stored entry is the specification's row
  function of row `p` of the block(s).
-/
import proofs.«167293_j42399917146354_2_alg».proof.Proof.Gen.KernelIdeal.Skeleton
import proofs.«167293_j42399917146354_2_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The block matmul as a sum over the contracted axis -/

theorem lhs_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem lhs_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A block of rows times a `[128, 128]` matrix into a zero accumulator, at `(p, q)`: the sum over `k` of
    `l[p, k] · r[k, q]`. -/
theorem matmul_block_apply {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  show FloatOps.matmul dot_S4000x128_S128x128_S4000x128_1_0_0_1_n_n none l r
      (constant (F := Ideal) S4000x128 .f32 0x00000000#32) (ix2 p q) = _
  rw [Ideal.matmul_constant_zero_apply,
    ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q)
      ((ValueIdx.contrEquiv1 dot_S4000x128_S128x128_S4000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S4000x128_S128x128_S4000x128_1_0_0_1_n_n.rhsIdx (ix2 p q)
      ((ValueIdx.contrEquiv1 dot_S4000x128_S128x128_S4000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-! ## The bias row broadcast down the block -/

/-- A `[1, 128]` row, cast to its own shape and broadcast to `[4000, 128]`, reads its entry `(0, q)` at `(p, q)`. -/
theorem bias_apply {α : Type} (v : S1x128.Idx → α) (h1 : S1x128.ShapeCasts S1x128) (h2 : S1x128.Broadcasts S4000x128)
    (p : Fin 4000) (q : Fin 128) :
    broadcastTo S4000x128 (shapeCast S1x128 v h1) h2 (ix2 p q) = v (ix2 (0 : Fin 1) q) := by
  rw [shapeCast_self]
  exact broadcastTo_apply v h2 (ix2 p q) (ix2 (0 : Fin 1) q) (fun a => by
    match a with
    | ⟨0, _⟩ => rfl
    | ⟨1, _⟩ => rfl)

/-! ## The two stored values -/

/-- The gate's body stores, at `(p, q)`, the gate of row `p` of its node block. -/
theorem pay0_apply (v0 : FVec Ideal S4000x128 .f32) (v2 : FVec Ideal S128x128 .f32) (v5 : FVec Ideal S1x128 .f32)
    (p : Fin 4000) (q : Fin 128) :
    k0_pay1 (F := Ideal) v0 v2 v5 (ix2 p q)
      = Cert.Spec.gateRow (fun k => v0 (ix2 p k)) v2 (fun j => v5 (ix2 (0 : Fin 1) j)) q := by
  unfold k0_pay1
  dsimp only [logistic, addf]
  rw [matmul_block_apply, bias_apply]
  rfl

/-- The output's body stores, at `(p, q)`, `tanh` of the affine image of row `p` of the node block plus the affine
    image of row `p` of the aggregated block. -/
theorem pay1_apply (v0 v1 : FVec Ideal S4000x128 .f32) (v5 v7 : FVec Ideal S128x128 .f32) (v10 v15 : FVec Ideal S1x128 .f32)
    (p : Fin 4000) (q : Fin 128) :
    k1_pay1 (F := Ideal) v0 v1 v5 v7 v10 v15 (ix2 p q)
      = Ideal.tanh (Cert.Spec.affine (fun k => v0 (ix2 p k)) v5 (fun j => v10 (ix2 (0 : Fin 1) j)) q
          + Cert.Spec.affine (fun k => v1 (ix2 p k)) v7 (fun j => v15 (ix2 (0 : Fin 1) j)) q) := by
  unfold k1_pay1
  dsimp only [tanh, addf]
  rw [matmul_block_apply, matmul_block_apply, bias_apply, bias_apply, shapeCast_self]
  rfl

end Cert.KernelIdeal.Payload

end
-- ==== Proof.Region0.lean ====
/-
  The gate's pallas_call: its output array as ONE function of the arrays it finds.

  The grid has ten points; point `t` works on node rows `4000 t … 4000 t + 3999`: the node window's and the output
  window's block index is `(t, 0)`, the weight's and the bias's is `(0, 0)` at every point. So element `(p, k)` of the
  node block at point `t` is the node array's `(4000 t + p, k)`, the weight and bias blocks are the whole arrays, and
  what point `t` writes back — the gate of each row of its block — is block `t` of the gate of every node. The ten
  blocks tile the `[40000, 128]` output (row `r` lies in block `r / 4000`), so after the region the output array is
  the gate of every node, whatever the array held before.
  Everything is stated at the contents `V` the region is entered with, a parameter.
-/
import proofs.«167293_j42399917146354_2_alg».proof.Proof.Gen.KernelIdeal.Frame
import proofs.«167293_j42399917146354_2_alg».proof.Proof.Payload

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The gate of every node, from the arrays the region finds: nodes, weight, and the bias as a `[1, 128]` row. -/
def gate (c : Dev nD) : S40000x128.Idx → EReal :=
  Cert.Spec.attn (V c main_arg0) (V c main_arg6) (fun j => V c main_v4 (ix2 (0 : Fin 1) j))

/-- Element `(p, k)` of the node block at point `t` is the node array's `(4000 t + p, k)`. -/
theorem blk_nodes (c : Dev nD) (t : Fin cfg0.N) (p : Fin 4000) (k : Fin 128) (n : Fin 40000)
    (hn : n.val = t.val * 4000 + p.val) :
    iblk0 V c 0 t (ix2 p k) = V c main_arg0 (ix2 n k) := by
  obtain ⟨e00, e01, -⟩ := idx_facts t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 4000 + 1 * p.val = n.val; omega
  | ⟨1, _⟩ => show win0_0.index t (1 : Fin 2) * 128 + 1 * k.val = k.val; omega

/-- The weight block at every point is the whole weight array. -/
theorem blk_weight (c : Dev nD) (t : Fin cfg0.N) (k q : Fin 128) :
    iblk0 V c 1 t (ix2 k q) = V c main_arg6 (ix2 k q) := by
  obtain ⟨-, -, e10, e11, -⟩ := idx_facts t
  show V c main_arg6 (((cfg0.win 1).blk t).view.emb (ix2 k q)) = V c main_arg6 (ix2 k q)
  refine congrArg (V c main_arg6) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias block at every point is the whole bias row. -/
theorem blk_bias (c : Dev nD) (t : Fin cfg0.N) (q : Fin 128) :
    iblk0 V c 2 t (ix2 (0 : Fin 1) q) = V c main_v4 (ix2 (0 : Fin 1) q) := by
  obtain ⟨-, -, -, -, e20, e21, -⟩ := idx_facts t
  show V c main_v4 (((cfg0.win 2).blk t).view.emb (ix2 (0 : Fin 1) q)) = V c main_v4 (ix2 (0 : Fin 1) q)
  refine congrArg (V c main_v4) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- Element `(p, q)` of the output block at point `t` sits at `(4000 t + p, q)` of the output array. -/
theorem emb_out (t : Fin cfg0.N) (p : Fin 4000) (q : Fin 128) (n : Fin 40000) (hn : n.val = t.val * 4000 + p.val) :
    ((cfg0.win 3).blk t).view.emb (ix2 p q) = (ix2 n q : S40000x128.Idx) := by
  obtain ⟨-, -, -, -, -, -, e30, e31⟩ := idx_facts t
  refine funext fun a => Fin.ext ?_
  match a with
  | ⟨0, _⟩ => show win0_3.index t (0 : Fin 2) * 4000 + 1 * p.val = n.val; omega
  | ⟨1, _⟩ => show win0_3.index t (1 : Fin 2) * 128 + 1 * q.val = q.val; omega

/-- WHAT POINT `t` WRITES BACK is block `t` of the gate of every node. -/
theorem flushed_eq (c : Dev nD) (t : Fin cfg0.N) :
    (dat0 V c).flushed 3 t = ((cfg0.win 3).blk t).view.read (Elt Ideal) (gate V c) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  have hN : grid0.N = 10 := N_0
  have ht : t.val < 10 := hN ▸ t.isLt
  show k0_pay1 (F := Ideal) (iblk0 V c 0 t) (iblk0 V c 1 t) (iblk0 V c 2 t) (ix2 p q)
      = gate V c (((cfg0.win 3).blk t).view.emb (ix2 p q))
  rw [emb_out t p q ⟨t.val * 4000 + p.val, by have := p.isLt; omega⟩ rfl]
  refine (Payload.pay0_apply _ _ _ p q).trans ?_
  unfold gate
  rw [Cert.Spec.attn_apply]
  unfold Cert.Spec.gateRow Cert.Spec.affine
  refine congrArg Ideal.logistic ?_
  beta_reduce
  rw [blk_bias V c t q]
  refine congrArg (· + V c main_v4 (ix2 (0 : Fin 1) q)) (Finset.sum_congr rfl fun k _ => ?_)
  rw [blk_nodes V c t p k ⟨t.val * 4000 + p.val, by have := p.isLt; omega⟩ rfl, blk_weight V c t k q]

/-- An index of the output array is in point `t`'s block iff each coordinate is in the block's range on its axis. -/
theorem mem_blk (t : Fin cfg0.N) (i : S40000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v5).slice (win0_3.rect t)).set ↔ _
  rw [View.set_slice_whole, Rect.mem_set_unit]
  exact Iff.rfl

/-- The ten blocks tile the output array: row `r` lies in block `r / 4000`. -/
theorem cover (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  have hN : grid0.N = 10 := N_0
  let t : Fin cfg0.N := ⟨(i 0).val / 4000, by show (i 0).val / 4000 < grid0.N; rw [hN]; omega⟩
  obtain ⟨-, -, -, -, -, -, e30, e31⟩ := idx_facts t
  have e30' : win0_3.index t (0 : Fin 2) = (i 0).val / 4000 := e30
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-- THE OUTPUT ARRAY after the region: the gate of every node. -/
theorem final (c : Dev nD) : (dat0 V c).arrAt 3 cfg0.N = gate V c :=
  (dat0 V c).arrAt_eq_of_cover 3 (gate V c) (fun t _ => flushed_eq V c t) cover

end Cert.KernelIdeal.Region0

end
-- ==== Proof.Region1.lean ====
/-
  The output's pallas_call: its output array as ONE function of the arrays it finds.

  Ten points again; point `t` works on node rows `4000 t … 4000 t + 3999` of BOTH row-blocked inputs, the node array
  and the aggregated array (block index `(t, 0)` for each and for the output), while the two weights and the two bias
  rows sit at block `(0, 0)` at every point. What point `t` writes back — `tanh` of the sum of the two affine images,
  row by row of its two blocks — is block `t` of the layer's output computed from the whole arrays; the ten blocks
  tile the `[40000, 128]` output, so after the region the output array is the layer's output, whatever it held before.
  Everything is stated at the contents `V` the region is entered with, a parameter.
-/
import proofs.«167293_j42399917146354_2_alg».proof.Proof.Gen.KernelIdeal.Frame
import proofs.«167293_j42399917146354_2_alg».proof.Proof.Payload

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer's output from the arrays the region finds: nodes, aggregated messages, the two weights, and the two biases
    as `[1, 128]` rows. -/
def out (c : Dev nD) : S40000x128.Idx → EReal :=
  Cert.Spec.combine (V c main_arg0) (V c main_v23) (V c main_arg2) (fun j => V c main_v24 (ix2 (0 : Fin 1) j))
    (V c main_arg4) (fun j => V c main_v25 (ix2 (0 : Fin 1) j))

/-- Element `(p, k)` of the node block at point `t` is the node array's `(4000 t + p, k)`. -/
theorem blk_nodes (c : Dev nD) (t : Fin cfg1.N) (p : Fin 4000) (k : Fin 128) (n : Fin 40000)
    (hn : n.val = t.val * 4000 + p.val) :
    iblk1 V c 0 t (ix2 p k) = V c main_arg0 (ix2 n k) := by
  obtain ⟨e00, e01, -⟩ := idx_facts t
  show V c main_arg0 (((cfg1.win 0).blk t).view.emb (ix2 p k)) = V c main_arg0 (ix2 n k)
  refine congrArg (V c main_arg0) (funext fun a => Fin.ext ?_)
  match a with
  | ⟨0, _⟩ => show win1_0.index t (0 : Fin 2) * 4000 + 1 * p.val = n.val; omega
  | ⟨1, _⟩ => show win1_0.index t (1 : Fin 2) * 128 + 1 * k.val = k.val; omega

/-- Element `(p, k)` of the aggregated block at point `t` is the aggregated array's `(4000 t + p, k)`. -/
theorem blk_aggr (c : Dev nD) (t : Fin cfg1.N) (p : Fin 4000) (k : Fin 128) (n : Fin 40000)
    (hn : n.val = t.val * 4000 + p.val) :
    iblk1 V c 1 t (ix2 p k) = V c main_v23 (ix2 n k) := by
  obtain ⟨-, -, e10, e11, -⟩ := idx_facts t
  show V c main_v23 (((cfg1.win 1).blk t).view.emb (ix2 p k)) = V c main_v23 (ix2 n k)
  refine congrArg (V c main_v23) (funext fun a => Fin.ext ?_)
  match a with
  | ⟨0, _⟩ => show win1_1.index t (0 : Fin 2) * 4000 + 1 * p.val = n.val; omega
  | ⟨1, _⟩ => show win1_1.index t (1 : Fin 2) * 128 + 1 * k.val = k.val; omega

/-- The node weight block at every point is the whole array. -/
theorem blk_wn (c : Dev nD) (t : Fin cfg1.N) (k q : Fin 128) :
    iblk1 V c 2 t (ix2 k q) = V c main_arg2 (ix2 k q) := by
  obtain ⟨-, -, -, -, e20, e21, -⟩ := idx_facts t
  show V c main_arg2 (((cfg1.win 2).blk t).view.emb (ix2 k q)) = V c main_arg2 (ix2 k q)
  refine congrArg (V c main_arg2) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The node bias block at every point is the whole row. -/
theorem blk_bn (c : Dev nD) (t : Fin cfg1.N) (q : Fin 128) :
    iblk1 V c 3 t (ix2 (0 : Fin 1) q) = V c main_v24 (ix2 (0 : Fin 1) q) := by
  obtain ⟨-, -, -, -, -, -, e30, e31, -⟩ := idx_facts t
  show V c main_v24 (((cfg1.win 3).blk t).view.emb (ix2 (0 : Fin 1) q)) = V c main_v24 (ix2 (0 : Fin 1) q)
  refine congrArg (V c main_v24) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The aggregate weight block at every point is the whole array. -/
theorem blk_wg (c : Dev nD) (t : Fin cfg1.N) (k q : Fin 128) :
    iblk1 V c 4 t (ix2 k q) = V c main_arg4 (ix2 k q) := by
  obtain ⟨-, -, -, -, -, -, -, -, e40, e41, -⟩ := idx_facts t
  show V c main_arg4 (((cfg1.win 4).blk t).view.emb (ix2 k q)) = V c main_arg4 (ix2 k q)
  refine congrArg (V c main_arg4) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- The aggregate bias block at every point is the whole row. -/
theorem blk_bg (c : Dev nD) (t : Fin cfg1.N) (q : Fin 128) :
    iblk1 V c 5 t (ix2 (0 : Fin 1) q) = V c main_v25 (ix2 (0 : Fin 1) q) := by
  obtain ⟨-, -, -, -, -, -, -, -, -, -, e50, e51, -⟩ := idx_facts t
  show V c main_v25 (((cfg1.win 5).blk t).view.emb (ix2 (0 : Fin 1) q)) = V c main_v25 (ix2 (0 : Fin 1) q)
  refine congrArg (V c main_v25) (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- Element `(p, q)` of the output block at point `t` sits at `(4000 t + p, q)` of the output array. -/
theorem emb_out (t : Fin cfg1.N) (p : Fin 4000) (q : Fin 128) (n : Fin 40000) (hn : n.val = t.val * 4000 + p.val) :
    ((cfg1.win 6).blk t).view.emb (ix2 p q) = (ix2 n q : S40000x128.Idx) := by
  obtain ⟨-, -, -, -, -, -, -, -, -, -, -, -, e60, e61⟩ := idx_facts t
  refine funext fun a => Fin.ext ?_
  match a with
  | ⟨0, _⟩ => show win1_6.index t (0 : Fin 2) * 4000 + 1 * p.val = n.val; omega
  | ⟨1, _⟩ => show win1_6.index t (1 : Fin 2) * 128 + 1 * q.val = q.val; omega

/-- WHAT POINT `t` WRITES BACK is block `t` of the layer's output. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x128) hz, View.ld_unit_zero (S := S1x128) hz]
  funext y
  obtain ⟨p, q, rfl⟩ : ∃ (p : Fin 4000) (q : Fin 128), y = ix2 p q := ⟨y 0, y 1, eq_ix2 y⟩
  have hN : grid1.N = 10 := N_1
  have ht : t.val < 10 := hN ▸ t.isLt
  show k1_pay1 (F := Ideal) (iblk1 V c 0 t) (iblk1 V c 1 t) (iblk1 V c 2 t) (iblk1 V c 4 t) (iblk1 V c 3 t) (iblk1 V c 5 t) (ix2 p q)
      = out V c (((cfg1.win 6).blk t).view.emb (ix2 p q))
  rw [emb_out t p q ⟨t.val * 4000 + p.val, by have := p.isLt; omega⟩ rfl]
  refine (Payload.pay1_apply _ _ _ _ _ _ p q).trans ?_
  unfold out
  rw [Cert.Spec.combine_apply]
  unfold Cert.Spec.affine
  refine congrArg Ideal.tanh ?_
  beta_reduce
  rw [blk_bn V c t q, blk_bg V c t q]
  refine congrArg₂ (· + ·)
    (congrArg (· + V c main_v24 (ix2 (0 : Fin 1) q)) (Finset.sum_congr rfl fun k _ => ?_))
    (congrArg (· + V c main_v25 (ix2 (0 : Fin 1) q)) (Finset.sum_congr rfl fun k _ => ?_))
  · rw [blk_nodes V c t p k ⟨t.val * 4000 + p.val, by have := p.isLt; omega⟩ rfl, blk_wn V c t k q]
  · rw [blk_aggr V c t p k ⟨t.val * 4000 + p.val, by have := p.isLt; omega⟩ rfl, blk_wg V c t k q]

/-- An index of the output array is in point `t`'s block iff each coordinate is in the block's range on its axis. -/
theorem mem_blk (t : Fin cfg1.N) (i : S40000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v26).slice (win1_6.rect t)).set ↔ _
  rw [View.set_slice_whole, Rect.mem_set_unit]
  exact Iff.rfl

/-- The ten blocks tile the output array: row `r` lies in block `r / 4000`. -/
theorem cover (i : S40000x128.Idx) :
    ∃ t : Fin cfg1.N, (cfg1.win 6).flush t = true ∧ i ∈ ((cfg1.win 6).blk t).view.set := by
  have hi0 : (i 0).val < 40000 := (i 0).isLt
  have hi1 : (i 1).val < 128 := (i 1).isLt
  have hN : grid1.N = 10 := N_1
  let t : Fin cfg1.N := ⟨(i 0).val / 4000, by show (i 0).val / 4000 < grid1.N; rw [hN]; omega⟩
  obtain ⟨-, -, -, -, -, -, -, -, -, -, -, -, e60, e61⟩ := idx_facts t
  have e60' : win1_6.index t (0 : Fin 2) = (i 0).val / 4000 := e60
  refine ⟨t, flush1_6 t, ?_⟩
  rw [mem_blk]
  intro a
  match a with
  | ⟨0, _⟩ =>
    show win1_6.index t (0 : Fin 2) * 4000 ≤ (i 0).val ∧ (i 0).val < win1_6.index t (0 : Fin 2) * 4000 + 4000
    omega
  | ⟨1, _⟩ =>
    show win1_6.index t (1 : Fin 2) * 128 ≤ (i 1).val ∧ (i 1).val < win1_6.index t (1 : Fin 2) * 128 + 128
    omega

/-- THE OUTPUT ARRAY after the region: the layer's output. -/
theorem final (c : Dev nD) : (dat1 V c).arrAt 6 cfg1.N = out V c :=
  (dat1 V c).arrAt_eq_of_cover 6 (out V c) (fun t _ => flushed_eq V c t) cover

end Cert.KernelIdeal.Region1

end
-- ==== Proof.HostRead.lean ====
/-
  The idealized kernel's result as a function of the argument arrays.

  The segments' boundary contents are a fold from the launch memory. Walking it back:
    * before the gate's pallas_call the host only slices and reshapes: the node matrix and the gate's weight are the
      arguments, the gate's bias row is the bias vector cast to `[1, 128]`, and the two index vectors are the two rows
      of the edge index array;
    * the gate's pallas_call leaves the gate of every node in its output array and nothing else changed;
    * the host then normalises the source indices (a negative index counts from the end), gathers the rows of the
      node matrix and of the gate at them, multiplies, and scatter-adds the products into a zero `[40000, 128]` array
      at the target indices: the aggregated messages (`agg`);
    * the output's pallas_call leaves the layer's output, computed from the node matrix, `agg`, the two weights and the
      two bias vectors (cast to rows), in the result array.
-/
import proofs.«167293_j42399917146354_2_alg».proof.Proof.Gen.KernelIdeal.Frame
import proofs.«167293_j42399917146354_2_alg».proof.Proof.Region0
import proofs.«167293_j42399917146354_2_alg».proof.Proof.Region1
import Idealize.ShloMosaic.Lib.StableHlo.Run
import Idealize.ShloMosaic.Lib.Pipeline.Value

set_option maxRecDepth 16384

noncomputable section

namespace Cert.KernelIdeal.HostValue

open Cert.KernelIdeal Cert.KernelIdeal.Gen Idealize.ShloMosaic Idealize.ShloMosaic.TcCoe Idealize.ShloMosaic.ValueIdx
open Idealize.ShloMosaic.StableHlo Idealize.SL.Sem

/-! ## The host's index arrays and the aggregated messages, as functions of the arguments -/

/-- The target node of every edge: row 0 of the edge index array. -/
def rowVec (x1 : IVec S2x640000 32) : IVec S640000 32 :=
  shapeCast S640000 (extractStridedSlice S1x640000 ![0, 0] x1 slices_S2x640000_S1x640000_0_0) shapeCasts_S1x640000_S640000

/-- The source node of every edge: row 1 of the edge index array. -/
def colVec (x1 : IVec S2x640000 32) : IVec S640000 32 :=
  shapeCast S640000 (extractStridedSlice S1x640000 ![1, 0] x1 slices_S2x640000_S1x640000_1_0) shapeCasts_S1x640000_S640000

/-- The gathers' start indices: the source nodes, a negative one counted from the end, as a column. -/
def colIdx (x1 : IVec S2x640000 32) : IVec S640000x1 32 :=
  broadcastInDim S640000x1 ![0] bcast_S640000_S640000x1_0
    (select (cmpi .slt (colVec x1) (broadcastInDim S640000 ![] bcast_S_S640000 (constantI S_ 32 0#32)))
      (addi (colVec x1) (broadcastInDim S640000 ![] bcast_S_S640000 (constantI S_ 32 40000#32))) (colVec x1))

/-- The aggregated messages: the rows of the node matrix and of the gate at the edges' source nodes, multiplied, summed
    into the edges' target nodes. -/
def agg (x0 : FVec Ideal S40000x128 .f32) (x1 : IVec S2x640000 32) (x6 : FVec Ideal S128x128 .f32)
    (x7 : FVec Ideal S128 .f32) : FVec Ideal S40000x128 .f32 :=
  Host.scatterAdd scatter_S40000x128_S640000x1_S640000x128_1_0_0_1
    (broadcastInDim S40000x128 ![] bcast_S_S40000x128 (constant (F := Ideal) S_ .f32 0x00000000#32))
    (broadcastInDim S640000x1 ![0] bcast_S640000_S640000x1_0 (rowVec x1))
    (mulf (Host.gather gather_S40000x128_S640000x1_S640000x128_1_0_n_n_0_1_1128 x0 (colIdx x1))
      (Host.gather gather_S40000x128_S640000x1_S640000x128_1_0_n_n_0_1_1128
        (Cert.Spec.attn x0 x6 (fun q => x7 (ix1 q))) (colIdx x1)))

/-- A `[128]` vector cast to the row `[1, 128]` reads its entry `j` at `(0, j)`. -/
theorem row_cast_apply {α : Type} (x : S128.Idx → α) (h : S128.ShapeCasts S1x128) (j : Fin 128) :
    shapeCast S1x128 x h (ix2 (0 : Fin 1) j) = x (ix1 j) :=
  shapeCast_apply x h (ix2 (0 : Fin 1) j) (ix1 j) (by
    rewrite [Shape.rowMajor_val_one, Shape.rowMajor_val_two]
    show j.val = 0 * 128 + j.val
    omega)

variable (m : (ℓ : Loc nD τ sig) → Buf (Elt Ideal) ℓ) (ρ : Dev nD → PrngReg)

/-! ## Before the gate's pallas_call -/

theorem V1_arg0 (c : Dev nD) : V1 m ρ c main_arg0 = m ((c : Thread nD τ).loc main_arg0) := by
  show StableHlo.after hostOps0 (W0 m ρ c) (Proc.devRef .tc main_arg0) = _
  after_results_simp <;> rfl

theorem V1_arg6 (c : Dev nD) : V1 m ρ c main_arg6 = m ((c : Thread nD τ).loc main_arg6) := by
  show StableHlo.after hostOps0 (W0 m ρ c) (Proc.devRef .tc main_arg6) = _
  after_results_simp <;> rfl

theorem V1_v4 (c : Dev nD) :
    V1 m ρ c main_v4 = shapeCast S1x128 (m ((c : Thread nD τ).loc main_arg7)) shapeCasts_S128_S1x128 := by
  show StableHlo.after hostOps0 (W0 m ρ c) (Proc.devRef .tc main_v4) = _
  after_results_simp <;> rfl

theorem W1_v1 (c : Dev nD) : W1 m ρ c (Proc.devRef .tc main_v1) = rowVec (m ((c : Thread nD τ).loc main_arg1)) := by
  show StableHlo.after hostOps0 (W0 m ρ c) (Proc.devRef .tc main_v1) = _
  after_results_simp <;> rfl

theorem W1_v3 (c : Dev nD) : W1 m ρ c (Proc.devRef .tc main_v3) = colVec (m ((c : Thread nD τ).loc main_arg1)) := by
  show StableHlo.after hostOps0 (W0 m ρ c) (Proc.devRef .tc main_v3) = _
  after_results_simp <;> rfl

theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl

theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl

/-! ## After the gate's pallas_call -/

/-- The gate the region computes is the gate of the argument arrays. -/
theorem gate_eq (c : Dev nD) :
    Region0.gate (V1 m ρ) c = Cert.Spec.attn (m ((c : Thread nD τ).loc main_arg0)) (m ((c : Thread nD τ).loc main_arg6))
      (fun q => m ((c : Thread nD τ).loc main_arg7) (ix1 q)) := by
  unfold Region0.gate
  rw [V1_arg0, V1_arg6, V1_v4]
  exact congrArg (Cert.Spec.attn _ _) (funext fun q => row_cast_apply _ _ q)

theorem W2_v5 (c : Dev nD) :
    W2 m ρ c (Proc.devRef .tc main_v5) = Cert.Spec.attn (m ((c : Thread nD τ).loc main_arg0))
      (m ((c : Thread nD τ).loc main_arg6)) (fun q => m ((c : Thread nD τ).loc main_arg7) (ix1 q)) :=
  (W2_arr m ρ c 3).trans ((Region0.final (V1 m ρ) c).trans (gate_eq m ρ c))

theorem W2_arg0 (c : Dev nD) : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (V1_arg0 m ρ c)))

theorem W2_v1 (c : Dev nD) : W2 m ρ c (Proc.devRef .tc main_v1) = rowVec (m ((c : Thread nD τ).loc main_arg1)) :=
  (W2_of_ne m ρ c main_v1 (by decide)).trans (W1_v1 m ρ c)

theorem W2_v3 (c : Dev nD) : W2 m ρ c (Proc.devRef .tc main_v3) = colVec (m ((c : Thread nD τ).loc main_arg1)) :=
  (W2_of_ne m ρ c main_v3 (by decide)).trans (W1_v3 m ρ c)

theorem W2_arg3 (c : Dev nD) : W2 m ρ c (Proc.devRef .tc main_arg3) = m ((c : Thread nD τ).loc main_arg3) :=
  (W2_of_ne m ρ c main_arg3 (by decide)).trans (W1_arg3 m ρ c)

theorem W2_arg5 (c : Dev nD) : W2 m ρ c (Proc.devRef .tc main_arg5) = m ((c : Thread nD τ).loc main_arg5) :=
  (W2_of_ne m ρ c main_arg5 (by decide)).trans (W1_arg5 m ρ c)

/-! ## Before the output's pallas_call -/

theorem V3_arg0 (c : Dev nD) : V3 m ρ c main_arg0 = m ((c : Thread nD τ).loc main_arg0) :=
  (((W4_arr m ρ c 0).trans (((dat1 (V3 m ρ) c).arrAt_in 0 rfl _).trans (A_eq1 (V3 m ρ) c 0))).symm).trans (W4_main_arg0 m ρ c)

theorem V3_arg2 (c : Dev nD) : V3 m ρ c main_arg2 = m ((c : Thread nD τ).loc main_arg2) :=
  (((W4_arr m ρ c 2).trans (((dat1 (V3 m ρ) c).arrAt_in 2 rfl _).trans (A_eq1 (V3 m ρ) c 2))).symm).trans (W4_main_arg2 m ρ c)

theorem V3_arg4 (c : Dev nD) : V3 m ρ c main_arg4 = m ((c : Thread nD τ).loc main_arg4) :=
  (((W4_arr m ρ c 4).trans (((dat1 (V3 m ρ) c).arrAt_in 4 rfl _).trans (A_eq1 (V3 m ρ) c 4))).symm).trans (W4_main_arg4 m ρ c)

theorem V3_v24 (c : Dev nD) :
    V3 m ρ c main_v24 = shapeCast S1x128 (m ((c : Thread nD τ).loc main_arg3)) shapeCasts_S128_S1x128 := by
  show StableHlo.after hostOps1 (W2 m ρ c) (Proc.devRef .tc main_v24) = _
  after_results_simp
  rw [W2_arg3]
  rfl

theorem V3_v25 (c : Dev nD) :
    V3 m ρ c main_v25 = shapeCast S1x128 (m ((c : Thread nD τ).loc main_arg5)) shapeCasts_S128_S1x128 := by
  show StableHlo.after hostOps1 (W2 m ρ c) (Proc.devRef .tc main_v25) = _
  after_results_simp
  rw [W2_arg5]
  rfl

theorem V3_v23 (c : Dev nD) :
    V3 m ρ c main_v23 = agg (m ((c : Thread nD τ).loc main_arg0)) (m ((c : Thread nD τ).loc main_arg1))
      (m ((c : Thread nD τ).loc main_arg6)) (m ((c : Thread nD τ).loc main_arg7)) := by
  show StableHlo.after hostOps1 (W2 m ρ c) (Proc.devRef .tc main_v23) = _
  after_results_simp
  rw [W2_v1, W2_v3, W2_arg0, W2_v5]
  rfl

/-! ## The result -/

/-- THE RESULT ARRAY after the run: the layer's output from the argument arrays and the aggregated messages. -/
theorem result (c : Dev nD) :
    W4 m ρ c (Proc.devRef .tc main_v26)
      = Cert.Spec.combine (m ((c : Thread nD τ).loc main_arg0))
          (agg (m ((c : Thread nD τ).loc main_arg0)) (m ((c : Thread nD τ).loc main_arg1))
            (m ((c : Thread nD τ).loc main_arg6)) (m ((c : Thread nD τ).loc main_arg7)))
          (m ((c : Thread nD τ).loc main_arg2)) (fun q => m ((c : Thread nD τ).loc main_arg3) (ix1 q))
          (m ((c : Thread nD τ).loc main_arg4)) (fun q => m ((c : Thread nD τ).loc main_arg5) (ix1 q)) := by
  refine (W4_arr m ρ c 6).trans ((Region1.final (V3 m ρ) c).trans ?_)
  unfold Region1.out
  rw [V3_arg0, V3_v23, V3_arg2, V3_v24, V3_arg4, V3_v25]
  exact congrArg₂ (fun bn bg => Cert.Spec.combine _ _ _ bn _ bg)
    (funext fun q => row_cast_apply _ _ q) (funext fun q => row_cast_apply _ _ q)

end Cert.KernelIdeal.HostValue

end
-- ==== Proof.LibGatherRows.lean ====
/-
  A `stablehlo.gather` of whole rows, read at an index.

  `x[idx]` for a matrix `x : [R, C]` and an integer vector `idx : [K]` lowers to a gather whose start indices are the
  column `[K, 1]`, with offset axis 1, collapsed operand axis 0, start index map `[0]`, the index vector on axis 1 and
  slices of one whole row, `[1, C]`. Entry `(e, j)` of the result is the operand's entry `(r e, j)`, where the row
  `r e` is the start index `idx[e, 0]` read as a signed integer and clamped into `[0, R - 1]`. The row depends on the
  start indices and on `e` alone: not on the operand and not on the column `j`. So gathering rows commutes with any
  map that acts on each row by itself.
-/
import Idealize.ShloMosaic.Lib.ValueIdx

noncomputable section

namespace Idealize.ShloMosaic.GatherRows

open Idealize.ShloMosaic Idealize.ShloMosaic.ValueIdx

/-- The dimension numbers of a row gather: operand `[R, C]`, start indices `[K, 1]`, result `[K, C]`. -/
abbrev rowsDims (R C K : Nat)
    (wf : GatherDims.WF ⟨2, ![R, C]⟩ ⟨2, ![K, 1]⟩ ⟨2, ![K, C]⟩ [1] [0] [] [0] [] 1 ![1, C]) :
    GatherDims ⟨2, ![R, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The row that result row `e` reads: the start index `idx[e, 0]`, signed, clamped into `[0, R - 1]`. -/
def rowOf {R K w : Nat} (hR : 0 < R) (idx : IVec ⟨2, ![K, 1]⟩ w) (e : Fin K) : Fin R :=
  ⟨min (idx (ix2 e (0 : Fin 1))).toInt.toNat (R - 1), by omega⟩

/-- On the row axis the operand index is the clamped start index: no batching coordinate, and no offset coordinate
    because the row axis is collapsed. -/
theorem operandIdx_rows_0 {R C K w : Nat} (hR : 0 < R)
    (wf : GatherDims.WF ⟨2, ![R, C]⟩ ⟨2, ![K, 1]⟩ ⟨2, ![K, C]⟩ [1] [0] [] [0] [] 1 ![1, C])
    (idx : IVec ⟨2, ![K, 1]⟩ w) (e : Fin K) (j : Fin C) :
    ((rowsDims R C K wf).operandIdx (ix2 e j) idx (0 : Fin 2)).val = (rowOf hR idx e).val := by
  show (rowsDims R C K wf).start (ix2 e j) idx (0 : Fin 2) + (rowsDims R C K wf).batchCoord (ix2 e j) (0 : Fin 2)
      + (rowsDims R C K wf).offCoord (ix2 e j) (0 : Fin 2) = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsDims R C K wf).startIndexMap from List.mem_singleton.mpr rfl)]
  have hsi : (rowsDims R C K wf).siIdx (ix2 e j) ⟨List.idxOf (0 : Fin 2) (rowsDims R C K wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index is the result's column: the start index map does not name the axis, and it is
    the one offset axis. -/
theorem operandIdx_rows_1 {R C K w : Nat}
    (wf : GatherDims.WF ⟨2, ![R, C]⟩ ⟨2, ![K, 1]⟩ ⟨2, ![K, C]⟩ [1] [0] [] [0] [] 1 ![1, C])
    (idx : IVec ⟨2, ![K, 1]⟩ w) (e : Fin K) (j : Fin C) :
    ((rowsDims R C K wf).operandIdx (ix2 e j) idx (1 : Fin 2)).val = j.val := by
  show (rowsDims R C K wf).start (ix2 e j) idx (1 : Fin 2) + (rowsDims R C K wf).batchCoord (ix2 e j) (1 : Fin 2)
      + (rowsDims R C K wf).offCoord (ix2 e j) (1 : Fin 2) = _
  have hs : (rowsDims R C K wf).start (ix2 e j) idx (1 : Fin 2) = 0 := by
    unfold GatherDims.start
    rw [dif_neg (show ¬ (1 : Fin 2) ∈ ([0] : List (Fin 2)) by decide)]
  have hk : (1 : Fin 2) ∈ (rowsDims R C K wf).sKept :=
    (GatherDims.mem_sKept _ _).mpr ⟨(show ¬ (1 : Fin 2) ∈ ([0] : List (Fin 2)) by decide), List.not_mem_nil⟩
  rw [GatherDims.batchCoord_eq_zero _ _ _ List.not_mem_nil, Nat.add_zero, hs, Nat.zero_add]
  unfold GatherDims.offCoord
  rw [dif_pos hk]
  rfl

/-- The operand index of result entry `(e, j)` is `(rowOf e, j)`. -/
theorem operandIdx_rows {R C K w : Nat} (hR : 0 < R)
    (wf : GatherDims.WF ⟨2, ![R, C]⟩ ⟨2, ![K, 1]⟩ ⟨2, ![K, C]⟩ [1] [0] [] [0] [] 1 ![1, C])
    (idx : IVec ⟨2, ![K, 1]⟩ w) (e : Fin K) (j : Fin C) :
    (rowsDims R C K wf).operandIdx (ix2 e j) idx = ix2 (rowOf hR idx e) j := by
  funext a
  refine Fin.ext ?_
  match a with
  | ⟨0, _⟩ => exact operandIdx_rows_0 hR wf idx e j
  | ⟨1, _⟩ => exact operandIdx_rows_1 wf idx e j

/-- THE ROW GATHER READ AT `(e, j)`: the operand's entry `(rowOf e, j)`. -/
theorem gather_rows_apply {α : Type} {R C K w : Nat} (hR : 0 < R)
    (wf : GatherDims.WF ⟨2, ![R, C]⟩ ⟨2, ![K, 1]⟩ ⟨2, ![K, C]⟩ [1] [0] [] [0] [] 1 ![1, C])
    (x : (⟨2, ![R, C]⟩ : Shape).Idx → α) (idx : IVec ⟨2, ![K, 1]⟩ w) (e : Fin K) (j : Fin C) :
    Host.gather (rowsDims R C K wf) x idx (ix2 e j) = x (ix2 (rowOf hR idx e) j) := by
  unfold Host.gather
  rw [operandIdx_rows hR wf idx e j]

/-- Gathering rows commutes with a map that acts row by row: if `y`'s entry `(r, j)` is `f` of `x`'s row `r` (and of
    `j`), then the gather of `y` at `(e, j)` is `f` of the gathered row `e` of `x`. -/
theorem gather_rows_rowwise {α β : Type} {R C K w : Nat} (hR : 0 < R)
    (wf : GatherDims.WF ⟨2, ![R, C]⟩ ⟨2, ![K, 1]⟩ ⟨2, ![K, C]⟩ [1] [0] [] [0] [] 1 ![1, C])
    (f : (Fin C → α) → Fin C → β) (x : (⟨2, ![R, C]⟩ : Shape).Idx → α) (y : (⟨2, ![R, C]⟩ : Shape).Idx → β)
    (hy : ∀ (r : Fin R) (j : Fin C), y (ix2 r j) = f (fun k => x (ix2 r k)) j)
    (idx : IVec ⟨2, ![K, 1]⟩ w) (e : Fin K) (j : Fin C) :
    Host.gather (rowsDims R C K wf) y idx (ix2 e j)
      = f (fun k => Host.gather (rowsDims R C K wf) x idx (ix2 e k)) j := by
  rw [gather_rows_apply hR wf y idx e j, hy]
  exact congrArg (fun g => f g j) (funext fun k => (gather_rows_apply hR wf x idx e k).symm)

end Idealize.ShloMosaic.GatherRows

end
-- ==== Proof.RefSide.lean ====
/-
  The reference, read against the specification.

  The reference gathers the node rows of the edges' source nodes first and applies the gate to the gathered
  `[640000, 128]` matrix: row `e` of its gate is the gate of row `r e` of the node matrix, `r e` the (clamped) source
  node of edge `e`. Its sigmoid is spelled `1 / (1 + exp (-s))`, which is the logistic function on every extended
  real. A row gather reads whole rows at a row that depends on the index array alone, so the reference's edge gate IS
  the row gather of the gate of every node (`gate_eq_gather`). The last stage is the specification's `combine` of the
  node matrix and the reference's own aggregated array (`result_eq`): two `dot_general`s as sums over the contracted
  axis, the two biases broadcast down the rows, `tanh`.
-/
import proofs.«167293_j42399917146354_2_alg».proof.Proof.Gen.ReferenceIdeal.Read
import proofs.«167293_j42399917146354_2_alg».proof.Proof.Spec
import proofs.«167293_j42399917146354_2_alg».proof.Proof.LibGatherRows
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.GatherRows

/-- The reference's gather record is the row gather's. -/
theorem gd_eq : gather_S40000x128_S640000x1_S640000x128_1_0_n_n_0_1_1128
    = rowsDims 40000 128 640000 Facts₀.gather_S40000x128_S640000x1_S640000x128_1_0_n_n_0_1_1128_wf := rfl

/-- The source node of edge `e`, as the gather reads it. -/
def src (x1 : (⟨S2x640000, .i32⟩ : BufTy).Contents (Elt Ideal)) (e : Fin 640000) : Fin 40000 :=
  rowOf (by decide : 0 < 40000) (val_main_v9 (F := Ideal) x1) e

/-- The gathered node matrix at `(e, k)`: the node matrix at `(src e, k)`. -/
theorem gathered_apply (x0 : (⟨S40000x128, .f32⟩ : BufTy).Contents (Elt Ideal))
    (x1 : (⟨S2x640000, .i32⟩ : BufTy).Contents (Elt Ideal)) (e : Fin 640000) (k : Fin 128) :
    val_main_v10 (F := Ideal) x0 x1 (ix2 e k) = x0 (ix2 (src x1 e) k) := by
  unfold val_main_v10
  rw [gd_eq]
  exact gather_rows_apply (by decide) _ x0 _ e k

/-- The reference's edge gate at `(e, j)`: the gate of the gathered row `e`. -/
theorem gate_apply (x0 : (⟨S40000x128, .f32⟩ : BufTy).Contents (Elt Ideal))
    (x1 : (⟨S2x640000, .i32⟩ : BufTy).Contents (Elt Ideal)) (x6 : (⟨S128x128, .f32⟩ : BufTy).Contents (Elt Ideal))
    (x7 : (⟨S128, .f32⟩ : BufTy).Contents (Elt Ideal)) (e : Fin 640000) (j : Fin 128) :
    val_main_v20 (F := Ideal) x0 x1 x6 x7 (ix2 e j)
      = Cert.Spec.gateRow (fun k => val_main_v10 (F := Ideal) x0 x1 (ix2 e k)) x6 (fun q => x7 (ix1 q)) j := by
  have hl : ∀ k : Fin 128, lidx_main_v11 (ix2 e j) k = ix2 e k := fun k => funext fun a => Fin.ext (by
    match a with
    | ⟨0, _⟩ => rfl
    | ⟨1, _⟩ => rfl)
  have hr : ∀ k : Fin 128, ridx_main_v11 (ix2 e j) k = ix2 k j := fun k => funext fun a => Fin.ext (by
    match a with
    | ⟨0, _⟩ => rfl
    | ⟨1, _⟩ => rfl)
  have hb : idx_main_v12 (idx_main_v13 (ix2 e j)) = ix1 j := funext fun a => Fin.ext (by
    match a with
    | ⟨0, _⟩ => rfl)
  rw [val_main_v20_apply, val_main_v19_apply, val_main_cst_1_apply, val_main_v18_apply, val_main_v17_apply,
    val_main_cst_apply, val_main_v16_apply, val_main_v15_apply, val_main_v14_apply, val_main_v11_apply,
    val_main_v13_apply, val_main_v12_apply]
  simp only [hl, hr, hb]
  show Ideal.div (Ideal.ofBits .f32 0x3F800000#32) (Ideal.ofBits .f32 0x3F800000#32
      + Ideal.exp (-((∑ k : Fin 128, val_main_v10 (F := Ideal) x0 x1 (ix2 e k) * x6 (ix2 k j)) + x7 (ix1 j)))) = _
  rw [Cert.Spec.ofBits_one_f32]
  rfl

/-- The reference's edge gate is the row gather of the gate of every node. -/
theorem gate_eq_gather (x0 : (⟨S40000x128, .f32⟩ : BufTy).Contents (Elt Ideal))
    (x1 : (⟨S2x640000, .i32⟩ : BufTy).Contents (Elt Ideal)) (x6 : (⟨S128x128, .f32⟩ : BufTy).Contents (Elt Ideal))
    (x7 : (⟨S128, .f32⟩ : BufTy).Contents (Elt Ideal)) :
    val_main_v20 (F := Ideal) x0 x1 x6 x7
      = Host.gather gather_S40000x128_S640000x1_S640000x128_1_0_n_n_0_1_1128
          (Cert.Spec.attn x0 x6 (fun q => x7 (ix1 q))) (val_main_v9 (F := Ideal) x1) := by
  funext i
  obtain ⟨e, j, rfl⟩ : ∃ (e : Fin 640000) (j : Fin 128), i = ix2 e j := ⟨i 0, i 1, eq_ix2 i⟩
  rw [gate_apply, gd_eq, gather_rows_apply (by decide : 0 < 40000), Cert.Spec.attn_apply]
  exact congrArg (fun g => Cert.Spec.gateRow g x6 (fun q => x7 (ix1 q)) j) (funext fun k => gathered_apply x0 x1 e k)

/-- THE REFERENCE'S RESULT: the layer's output from the node matrix and the reference's aggregated array. -/
theorem result_eq (x0 : (⟨S40000x128, .f32⟩ : BufTy).Contents (Elt Ideal))
    (x1 : (⟨S2x640000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v34 (F := Ideal) x0 x1 x2 x3 x4 x5 x6 x7
      = Cert.Spec.combine x0 (val_main_v24 (F := Ideal) x0 x1 x6 x7) x2 (fun q => x3 (ix1 q)) x4 (fun q => x5 (ix1 q)) := by
  funext i
  obtain ⟨n, j, rfl⟩ : ∃ (n : Fin 40000) (j : Fin 128), i = ix2 n j := ⟨i 0, i 1, eq_ix2 i⟩
  have hl1 : ∀ k : Fin 128, lidx_main_v25 (ix2 n j) k = ix2 n k := fun k => funext fun a => Fin.ext (by
    match a with
    | ⟨0, _⟩ => rfl
    | ⟨1, _⟩ => rfl)
  have hr1 : ∀ k : Fin 128, ridx_main_v25 (ix2 n j) k = ix2 k j := fun k => funext fun a => Fin.ext (by
    match a with
    | ⟨0, _⟩ => rfl
    | ⟨1, _⟩ => rfl)
  have hl2 : ∀ k : Fin 128, lidx_main_v29 (ix2 n j) k = ix2 n k := fun k => funext fun a => Fin.ext (by
    match a with
    | ⟨0, _⟩ => rfl
    | ⟨1, _⟩ => rfl)
  have hr2 : ∀ k : Fin 128, ridx_main_v29 (ix2 n j) k = ix2 k j := fun k => funext fun a => Fin.ext (by
    match a with
    | ⟨0, _⟩ => rfl
    | ⟨1, _⟩ => rfl)
  have hb1 : idx_main_v26 (idx_main_v27 (ix2 n j)) = ix1 j := funext fun a => Fin.ext (by
    match a with
    | ⟨0, _⟩ => rfl)
  have hb2 : idx_main_v30 (idx_main_v31 (ix2 n j)) = ix1 j := funext fun a => Fin.ext (by
    match a with
    | ⟨0, _⟩ => rfl)
  rw [val_main_v34_apply, val_main_v33_apply, val_main_v28_apply, val_main_v25_apply, val_main_v27_apply,
    val_main_v26_apply, val_main_v32_apply, val_main_v29_apply, val_main_v31_apply, val_main_v30_apply,
    Cert.Spec.combine_apply]
  simp only [hl1, hr1, hl2, hr2, hb1, hb2]
  rfl

end Cert.ReferenceIdeal.RefValue

end
-- ==== Proof.Bridge.lean ====
/-
  The two programs' aggregated messages are one function of the arguments.

  Both programs scatter-add, into a zero array at the same target indices, the product of the gathered node rows with a
  gate. The kernel's program gathers the gate of every node; the reference applies the gate to the gathered rows. A row
  gather passes through a map that acts row by row, so the two gates of the edges are one array, and everything around
  them — the index arithmetic, the two gathers' dimension numbers, the zero array, the scatter — is the same term in
  both programs.
-/
import proofs.«167293_j42399917146354_2_alg».proof.Proof.HostRead
import proofs.«167293_j42399917146354_2_alg».proof.Proof.RefSide

set_option maxRecDepth 16384

noncomputable section

namespace Cert.Bridge

open Idealize.ShloMosaic Idealize.ShloMosaic.ValueIdx

/-- The reference's aggregated array is the kernel's. -/
theorem agg_eq (x0 : (⟨Cert.ReferenceIdeal.S40000x128, .f32⟩ : BufTy).Contents (Elt Ideal))
    (x1 : (⟨Cert.ReferenceIdeal.S2x640000, .i32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal)) :
    Cert.ReferenceIdeal.Read.val_main_v24 (F := Ideal) x0 x1 x6 x7 = Cert.KernelIdeal.HostValue.agg x0 x1 x6 x7 := by
  unfold Cert.ReferenceIdeal.Read.val_main_v24 Cert.ReferenceIdeal.Read.val_main_v21
  rw [Cert.ReferenceIdeal.RefValue.gate_eq_gather]
  rfl

end Cert.Bridge

end
-- ==== Proof.lean ====
/-
  The certificate of a graph layer: a gate, a gathered and gated message per edge, a sum of the messages into the edges'
  target nodes, and `tanh` of two affine images.

  The kernel's program computes the gate `logistic (x · Wa + ba)` once per NODE in a pallas_call and gathers its rows at
  the edges' source nodes; the reference gathers the node rows first and applies the gate once per EDGE, spelling the
  sigmoid `1 / (1 + exp (-s))`. At the extended reals the logistic function is that quotient by definition, rounding a
  matmul's operands to bf16 is the identity, a matmul into a zero accumulator and a `dot_general` are the same sum over
  the contracted axis, and a tiling of the node rows into ten blocks of 4000 does not change a row-wise map. A row gather
  reads whole rows at a row that depends on the index array alone, so it passes through the gate. Everything else — the
  index arithmetic, the scatter-add, the last stage — is the same in both programs. No law used needs finiteness: the
  precondition is never opened.

  The three frames are the generated ones (the reference's is its generated run with the result dropped); the ideal pass
  rewrote nothing, so `preserves` is trivial; `algebraic` puts the kernel's run with its result named beside the
  reference's generated run and shows both results are `combine` of the arguments and one aggregated array.
-/
import proofs.«167293_j42399917146354_2_alg».proof.Defs
import proofs.«167293_j42399917146354_2_alg».proof.Proof.Gen.Kernel
import proofs.«167293_j42399917146354_2_alg».proof.Proof.Gen.Kernel.Frame
import proofs.«167293_j42399917146354_2_alg».proof.Proof.Gen.KernelIdeal
import proofs.«167293_j42399917146354_2_alg».proof.Proof.Gen.KernelIdeal.Frame
import proofs.«167293_j42399917146354_2_alg».proof.Proof.Gen.ReferenceIdeal
import proofs.«167293_j42399917146354_2_alg».proof.Proof.Gen.ReferenceIdeal.Run
import proofs.«167293_j42399917146354_2_alg».proof.Proof.Gen.ReferenceIdeal.Read
import proofs.«167293_j42399917146354_2_alg».proof.Proof.Gen.Pre_finite_inputs
import proofs.«167293_j42399917146354_2_alg».proof.Proof.KernelRun
import proofs.«167293_j42399917146354_2_alg».proof.Proof.HostRead
import proofs.«167293_j42399917146354_2_alg».proof.Proof.RefSide
import proofs.«167293_j42399917146354_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the layer's output of the arguments: the kernel's result array holds it after the second
    pallas_call, the reference's last stage is it, and their aggregated arrays are one function of the arguments. -/
theorem algebraic : Cert.algebraic_KernelIdeal_ReferenceIdeal := by
  intro m ρ m' ρ' _ hagree
  refine ⟨fun c => Cert.KernelIdeal.Gen.W4 m ρ c (Proc.devRef .tc Cert.KernelIdeal.main_v26),
    Cert.KernelIdeal.RunValue.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq, Cert.Bridge.agg_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.KernelIdeal.HostValue.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
